-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S512x640 : Shape := ⟨2, ![512, 640]⟩
abbrev S1024x1024 : Shape := ⟨2, ![1024, 1024]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x640 : S_.BroadcastsInDim S512x640 (![] : Fin 0 → Fin S512x640.rank)
  reducesTo_S512x640_S_d0_1 : S512x640.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x640 .f32) (main_arg5 : FVec F S512 .f32) (main_arg6 : FVec F S1024x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x640 .f32 := Host.absf main_arg4
  let main_cst_6 : FVec F S_ .f32 := constant S_ .f32 0x7F800000#32
  let main_v20 : FVec F S512x640 .f32 := broadcastInDim S512x640 ![] bcast_S_S512x640 main_cst_6
  let main_v21 : IVec S512x640 1 := cmpf .olt main_v19 main_v20
  let main_c_7 : IVec S_ 1 := constantI S_ 1 1#1
  let main_v22 : IVec S_ 1 := (fun x v => Host.reduce IntOp.andi x v reducesTo_S512x640_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x256x512 .f32) (main_arg1 : FVec F S8x64x640 .f32) (main_arg2 : FVec F S512x512 .f32) (main_arg3 : FVec F S512 .f32) (main_arg4 : FVec F S512x640 .f32) (main_arg5 : FVec F S512 .f32) (main_arg6 : FVec F S1024x1024 .f32) (main_arg7 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x640 .f32 := Host.absf main_arg1
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S512x640 : Shape := ⟨2, ![512, 640]⟩
abbrev S1024x1024 : Shape := ⟨2, ![1024, 1024]⟩
abbrev S1024 : Shape := ⟨1, ![1024]⟩
abbrev S1024x512 : Shape := ⟨2, ![1024, 512]⟩
abbrev S8x256x64x1024 : Shape := ⟨4, ![8, 256, 64, 1024]⟩
abbrev S1x32x512 : Shape := ⟨3, ![1, 32, 512]⟩
abbrev S1x64x640 : Shape := ⟨3, ![1, 64, 640]⟩
abbrev S1x32x64x1024 : Shape := ⟨4, ![1, 32, 64, 1024]⟩
abbrev S64x1024 : Shape := ⟨2, ![64, 1024]⟩
abbrev S64x640 : Shape := ⟨2, ![64, 640]⟩
abbrev S64x512 : Shape := ⟨2, ![64, 512]⟩
abbrev S1x512 : Shape := ⟨2, ![1, 512]⟩
abbrev S1x1024 : Shape := ⟨2, ![1, 1024]⟩
abbrev S32x512 : Shape := ⟨2, ![32, 512]⟩
abbrev S32x1024 : Shape := ⟨2, ![32, 1024]⟩
abbrev S32x1x1024 : Shape := ⟨3, ![32, 1, 1024]⟩
abbrev S1x64x1024 : Shape := ⟨3, ![1, 64, 1024]⟩
abbrev S32x64x1024 : Shape := ⟨3, ![32, 64, 1024]⟩

abbrev nBuf : Space → Nat
  | .hbm => 15
  | .vmem => 14
  | .smem => 0
  | _ => 0

abbrev bufTy : (tb : Table) → Fin (tcTables nBuf tb) → BufTy
  | .hbm, ⟨0, _⟩ => ⟨S8x256x512, .f32⟩
  | .hbm, ⟨1, _⟩ => ⟨S8x64x640, .f32⟩
  | .hbm, ⟨2, _⟩ => ⟨S512x512, .f32⟩
  | .hbm, ⟨3, _⟩ => ⟨S512, .f32⟩
  | .hbm, ⟨4, _⟩ => ⟨S512x640, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S512x512, .bf16⟩
  | .hbm, ⟨13, _⟩ => ⟨S512x640, .bf16⟩
  | .hbm, ⟨14, _⟩ => ⟨S8x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x640, .f32⟩
  | .local _ .vmem, ⟨3, _⟩ => ⟨S1x64x640, .f32⟩
  | .local _ .vmem, ⟨4, _⟩ => ⟨S512x512, .bf16⟩
  | .local _ .vmem, ⟨5, _⟩ => ⟨S512, .f32⟩
  | .local _ .vmem, ⟨6, _⟩ => ⟨S512x640, .bf16⟩
  | .local _ .vmem, ⟨7, _⟩ => ⟨S512, .f32⟩
  | .local _ .vmem, ⟨8, _⟩ => ⟨S1024x512, .bf16⟩
  | .local _ .vmem, ⟨9, _⟩ => ⟨S1024x512, .bf16⟩
  | .local _ .vmem, ⟨10, _⟩ => ⟨S1024, .f32⟩
  | .local _ .vmem, ⟨11, _⟩ => ⟨S1x32x64x1024, .f32⟩
  | .local _ .vmem, ⟨12, _⟩ => ⟨S1x32x64x1024, .f32⟩
  | .local _ .vmem, ⟨13, _⟩ => ⟨S64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x32x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S1024x1024_S1024x512_0_0 : S1024x1024.Slices ![0, 0] S1024x512
  bitsLt_bf16_f32 : FTy.bits .bf16 < FTy.bits .f32
  slices_S1024x1024_S1024x512_0_512 : S1024x1024.Slices ![0, 512] S1024x512
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S32x512 : S1x512.Broadcasts S32x512
  shapeCasts_S32x1024_S32x1x1024 : S32x1024.ShapeCasts S32x1x1024
  shapeCasts_S64x1024_S1x64x1024 : S64x1024.ShapeCasts S1x64x1024
  broadcasts_S32x1x1024_S32x64x1024 : S32x1x1024.Broadcasts S32x64x1024
  broadcasts_S1x64x1024_S32x64x1024 : S1x64x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S64x640_S512x640_S64x512_1_1_0_0_n_n_wf : DotDims.WF S64x640 S512x640 S64x512 [1] [1] [0] [0] [] []
  dot_S64x512_S1024x512_S64x1024_1_1_0_0_n_n_wf : DotDims.WF S64x512 S1024x512 S64x1024 [1] [1] [0] [0] [] []
  dot_S32x512_S512x512_S32x512_1_1_0_0_n_n_wf : DotDims.WF S32x512 S512x512 S32x512 [1] [1] [0] [0] [] []
  dot_S32x512_S1024x512_S32x1024_1_1_0_0_n_n_wf : DotDims.WF S32x512 S1024x512 S32x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S8x64x640.size a
  hwx0_1 : ∀ i : grid0.Coords, EltTy.bits .f32 = 32 ∨ (Rect.block (s := S8x64x640) S1x64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x640.size a ≤ S512x640.size a
  hwx0_4 : ∀ i : grid0.Coords, EltTy.bits .bf16 = 32 ∨ (Rect.block (s := S512x640) S512x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x64x1024.size a ≤ S8x256x64x1024.size a
  hwx0_9 : ∀ i : grid0.Coords, EltTy.bits .f32 = 32 ∨ (Rect.block (s := S8x256x64x1024) S1x32x64x1024.size (cc0_transform_9 i) (hinb0_9 i)).WholeWords (EltTy.packing .f32)

variable [Facts₀]

def dot_S64x640_S512x640_S64x512_1_1_0_0_n_n : DotDims S64x640 S512x640 S64x512 where
  lhsContracting := [1]
  rhsContracting := [1]
  lhsNonContracting := [0]
  rhsNonContracting := [0]
  lhsBatch := []
  rhsBatch := []
  wf := dot_S64x640_S512x640_S64x512_1_1_0_0_n_n_wf
def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf
def dot_S32x512_S512x512_S32x512_1_1_0_0_n_n : DotDims S32x512 S512x512 S32x512 where
  lhsContracting := [1]
  rhsContracting := [1]
  lhsNonContracting := [0]
  rhsNonContracting := [0]
  lhsBatch := []
  rhsBatch := []
  wf := dot_S32x512_S512x512_S32x512_1_1_0_0_n_n_wf
def dot_S32x512_S1024x512_S32x1024_1_1_0_0_n_n : DotDims S32x512 S1024x512 S32x1024 where
  lhsContracting := [1]
  rhsContracting := [1]
  lhsNonContracting := [0]
  rhsNonContracting := [0]
  lhsBatch := []
  rhsBatch := []
  wf := dot_S32x512_S1024x512_S32x1024_1_1_0_0_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x32x64x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S512x640 : Shape := ⟨2, ![512, 640]⟩
abbrev S1024x1024 : Shape := ⟨2, ![1024, 1024]⟩
abbrev S1024 : Shape := ⟨1, ![1024]⟩
abbrev S1x1x512 : Shape := ⟨3, ![1, 1, 512]⟩
abbrev S8x64x512 : Shape := ⟨3, ![8, 64, 512]⟩
abbrev S1024x512 : Shape := ⟨2, ![1024, 512]⟩
abbrev S8x256x1024 : Shape := ⟨3, ![8, 256, 1024]⟩
abbrev S8x256x1x1024 : Shape := ⟨4, ![8, 256, 1, 1024]⟩
abbrev S8x64x1024 : Shape := ⟨3, ![8, 64, 1024]⟩
abbrev S8x1x64x1024 : Shape := ⟨4, ![8, 1, 64, 1024]⟩
abbrev S8x256x64x1024 : Shape := ⟨4, ![8, 256, 64, 1024]⟩
abbrev S1x1x1x1024 : Shape := ⟨4, ![1, 1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x640, .f32⟩
  | .hbm, ⟨2, _⟩ => ⟨S512x512, .f32⟩
  | .hbm, ⟨3, _⟩ => ⟨S512, .f32⟩
  | .hbm, ⟨4, _⟩ => ⟨S512x640, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S8x256x512, .f32⟩
  | .hbm, ⟨9, _⟩ => ⟨S1x1x512, .f32⟩
  | .hbm, ⟨10, _⟩ => ⟨S8x256x512, .f32⟩
  | .hbm, ⟨11, _⟩ => ⟨S8x256x512, .f32⟩
  | .hbm, ⟨12, _⟩ => ⟨S8x64x512, .f32⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S1024x512, .f32⟩
  | .hbm, ⟨17, _⟩ => ⟨S1024x512, .f32⟩
  | .hbm, ⟨18, _⟩ => ⟨S8x256x1024, .f32⟩
  | .hbm, ⟨19, _⟩ => ⟨S8x256x1x1024, .f32⟩
  | .hbm, ⟨20, _⟩ => ⟨S8x64x1024, .f32⟩
  | .hbm, ⟨21, _⟩ => ⟨S8x1x64x1024, .f32⟩
  | .hbm, ⟨22, _⟩ => ⟨S8x256x64x1024, .f32⟩
  | .hbm, ⟨23, _⟩ => ⟨S8x256x64x1024, .f32⟩
  | .hbm, ⟨24, _⟩ => ⟨S8x256x64x1024, .f32⟩
  | .hbm, ⟨25, _⟩ => ⟨S1x1x1x1024, .f32⟩
  | .hbm, ⟨26, _⟩ => ⟨S8x256x64x1024, .f32⟩
  | .hbm, ⟨27, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x256x512_0_1_2 : S1x1x512.BroadcastsInDim S8x256x512 (![0, 1, 2] : Fin 3 → Fin S8x256x512.rank)
  bcast_S1x1x512_S8x64x512_0_1_2 : S1x1x512.BroadcastsInDim S8x64x512 (![0, 1, 2] : Fin 3 → Fin S8x64x512.rank)
  slices_S1024x1024_S1024x512_0_0 : S1024x1024.Slices ![0, 0] S1024x512
  slices_S1024x1024_S1024x512_0_512 : S1024x1024.Slices ![0, 512] S1024x512
  bcast_S8x256x1024_S8x256x1x1024_0_1_3 : S8x256x1024.BroadcastsInDim S8x256x1x1024 (![0, 1, 3] : Fin 3 → Fin S8x256x1x1024.rank)
  bcast_S8x64x1024_S8x1x64x1024_0_2_3 : S8x64x1024.BroadcastsInDim S8x1x64x1024 (![0, 2, 3] : Fin 3 → Fin S8x1x64x1024.rank)
  bcast_S8x256x1x1024_S8x256x64x1024_0_1_2_3 : S8x256x1x1024.BroadcastsInDim S8x256x64x1024 (![0, 1, 2, 3] : Fin 4 → Fin S8x256x64x1024.rank)
  bcast_S8x1x64x1024_S8x256x64x1024_0_1_2_3 : S8x1x64x1024.BroadcastsInDim S8x256x64x1024 (![0, 1, 2, 3] : Fin 4 → Fin S8x256x64x1024.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x512_S512x512_S8x256x512_2_1_01_0_n_n_wf : DotDims.WF S8x256x512 S512x512 S8x256x512 [2] [1] [0, 1] [0] [] []
  dot_S8x64x640_S512x640_S8x64x512_2_1_01_0_n_n_wf : DotDims.WF S8x64x640 S512x640 S8x64x512 [2] [1] [0, 1] [0] [] []
  dot_S8x256x512_S1024x512_S8x256x1024_2_1_01_0_n_n_wf : DotDims.WF S8x256x512 S1024x512 S8x256x1024 [2] [1] [0, 1] [0] [] []
  dot_S8x64x512_S1024x512_S8x64x1024_2_1_01_0_n_n_wf : DotDims.WF S8x64x512 S1024x512 S8x64x1024 [2] [1] [0, 1] [0] [] []

variable [Facts₀]

def dot_S8x256x512_S512x512_S8x256x512_2_1_01_0_n_n : DotDims S8x256x512 S512x512 S8x256x512 where
  lhsContracting := [2]
  rhsContracting := [1]
  lhsNonContracting := [0, 1]
  rhsNonContracting := [0]
  lhsBatch := []
  rhsBatch := []
  wf := dot_S8x256x512_S512x512_S8x256x512_2_1_01_0_n_n_wf
def dot_S8x64x640_S512x640_S8x64x512_2_1_01_0_n_n : DotDims S8x64x640 S512x640 S8x64x512 where
  lhsContracting := [2]
  rhsContracting := [1]
  lhsNonContracting := [0, 1]
  rhsNonContracting := [0]
  lhsBatch := []
  rhsBatch := []
  wf := dot_S8x64x640_S512x640_S8x64x512_2_1_01_0_n_n_wf
def dot_S8x256x512_S1024x512_S8x256x1024_2_1_01_0_n_n : DotDims S8x256x512 S1024x512 S8x256x1024 where
  lhsContracting := [2]
  rhsContracting := [1]
  lhsNonContracting := [0, 1]
  rhsNonContracting := [0]
  lhsBatch := []
  rhsBatch := []
  wf := dot_S8x256x512_S1024x512_S8x256x1024_2_1_01_0_n_n_wf
def dot_S8x64x512_S1024x512_S8x64x1024_2_1_01_0_n_n : DotDims S8x64x512 S1024x512 S8x64x1024 where
  lhsContracting := [2]
  rhsContracting := [1]
  lhsNonContracting := [0, 1]
  rhsNonContracting := [0]
  lhsBatch := []
  rhsBatch := []
  wf := dot_S8x64x512_S1024x512_S8x64x1024_2_1_01_0_n_n_wf

class Facts : Prop extends Facts₀ where

variable [Facts]
-- ==== Proof.JoinerPieces.lean ====
/-
  What one run of the kernel body leaves behind, as values of what it loaded, for any float arithmetic.

  The body has two cases.  At the first frame tile of a batch element it first stores the kept buffer (the prediction
  side of the output layer plus the output bias, a function of the prediction block and the weights), reads it back, and
  stores the output block computed from the encoder block, the weights and that read-back.  At every other tile it only
  reads the kept buffer as the point before left it and stores the output block.  Each store covers its whole buffer, so
  what a buffer holds afterwards is the stored value itself; each load reads a whole buffer, so it reads the contents.
-/
import proofs.«169857_j12249246729035_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a first tile the kept buffer ends at the value stored into it: a function of the prediction block, the prediction
    weights and bias, the right half of the output weights and the output bias. -/
theorem kept_first (c : Dev nD) (i : grid0.Coords) (arg2 : Memref sig .tc .vmem S1x32x512 .f32) (harg2 : arg2.IsWhole) (arg3 : Memref sig .tc .vmem S1x64x640 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x640 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024 .f32) (harg10 : arg10.IsWhole) (arg11 : Memref sig .tc .vmem S1x32x64x1024 .f32) (harg11 : arg11.IsWhole) (arg12 : Memref sig .tc .vmem S64x1024 .f32) (harg12 : arg12.IsWhole) (hc0 : cond0_0 i) (x0 : Vec F S1x32x512 .f32) (x1 : Vec F S1x64x640 .f32) (x2 : Vec F S512x512 .bf16) (x3 : Vec F S512 .f32) (x4 : Vec F S512x640 .bf16) (x5 : Vec F S512 .f32) (x6 : Vec F S1024x512 .bf16) (x7 : Vec F S1024x512 .bf16) (x8 : Vec F S1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay1 x1 x4 x5 x7 x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz2]
  simp only [View.readAt_eq_ld, harg3.read_unread, harg6.read_unread, harg7.read_unread, harg9.read_unread, harg10.read_unread,
    View.ld_unit_zero (S := S1x32x512) hz3, View.ld_unit_zero (S := S1x64x640) hz3, View.ld_unit_zero (S := S512x512) hz2,
    View.ld_unit_zero (S := S512x640) hz2, View.ld_unit_zero (S := S512) hz1, View.ld_unit_zero (S := S1024x512) hz2,
    View.ld_unit_zero (S := S1024) hz1, View.ld_unit_zero (S := S64x1024) hz2]

/-- At a first tile the output block ends at the block computed from the encoder block and the kept buffer just stored. -/
theorem block_first (c : Dev nD) (i : grid0.Coords) (arg2 : Memref sig .tc .vmem S1x32x512 .f32) (harg2 : arg2.IsWhole) (arg3 : Memref sig .tc .vmem S1x64x640 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x640 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024 .f32) (harg10 : arg10.IsWhole) (arg11 : Memref sig .tc .vmem S1x32x64x1024 .f32) (harg11 : arg11.IsWhole) (arg12 : Memref sig .tc .vmem S64x1024 .f32) (harg12 : arg12.IsWhole) (hc0 : cond0_0 i) (x0 : Vec F S1x32x512 .f32) (x1 : Vec F S1x64x640 .f32) (x2 : Vec F S512x512 .bf16) (x3 : Vec F S512 .f32) (x4 : Vec F S512x640 .bf16) (x5 : Vec F S512 .f32) (x6 : Vec F S1024x512 .bf16) (x7 : Vec F S1024x512 .bf16) (x8 : Vec F S1024 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay2 x0 x2 x3 x6 (k0_pay1 x1 x4 x5 x7 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz4, View.readCov_unit_zero (S := S64x1024) _ hz2]
  simp only [View.readAt_eq_ld, harg2.read_unread, harg4.read_unread, harg5.read_unread, harg8.read_unread, harg3.read_unread, harg6.read_unread, harg7.read_unread, harg9.read_unread, harg10.read_unread,
    View.ld_unit_zero (S := S1x32x512) hz3, View.ld_unit_zero (S := S1x64x640) hz3, View.ld_unit_zero (S := S512x512) hz2,
    View.ld_unit_zero (S := S512x640) hz2, View.ld_unit_zero (S := S512) hz1, View.ld_unit_zero (S := S1024x512) hz2,
    View.ld_unit_zero (S := S1024) hz1, View.ld_unit_zero (S := S64x1024) hz2]

/-- At any other tile the output block ends at the block computed from the encoder block and the kept buffer as the
    point before left it. -/
theorem block_later (c : Dev nD) (i : grid0.Coords) (arg2 : Memref sig .tc .vmem S1x32x512 .f32) (harg2 : arg2.IsWhole) (arg3 : Memref sig .tc .vmem S1x64x640 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x640 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024 .f32) (harg10 : arg10.IsWhole) (arg11 : Memref sig .tc .vmem S1x32x64x1024 .f32) (harg11 : arg11.IsWhole) (arg12 : Memref sig .tc .vmem S64x1024 .f32) (harg12 : arg12.IsWhole) (hc0 : ¬cond0_0 i) (x0 : Vec F S1x32x512 .f32) (x1 : Vec F S1x64x640 .f32) (x2 : Vec F S512x512 .bf16) (x3 : Vec F S512 .f32) (x4 : Vec F S512x640 .bf16) (x5 : Vec F S512 .f32) (x6 : Vec F S1024x512 .bf16) (x7 : Vec F S1024x512 .bf16) (x8 : Vec F S1024 .f32) (xs0 : Vec F S64x1024 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = k0_pay2 x0 x2 x3 x6 xs0 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0)]
  unfold kernelRun0_B
  dsimp only
  sl_unfold_words
  rw [View.canon_unit_zero hz4]
  simp only [View.readAt_eq_ld, harg2.read_unread, harg4.read_unread, harg5.read_unread, harg8.read_unread, harg12.read_unread,
    View.ld_unit_zero (S := S1x32x512) hz3, View.ld_unit_zero (S := S1x64x640) hz3, View.ld_unit_zero (S := S512x512) hz2,
    View.ld_unit_zero (S := S512x640) hz2, View.ld_unit_zero (S := S512) hz1, View.ld_unit_zero (S := S1024x512) hz2,
    View.ld_unit_zero (S := S1024) hz1, View.ld_unit_zero (S := S64x1024) hz2]

end Cert.KernelIdeal.Pieces

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibTransposedDot.lean ====
/-
  A matrix product whose right operand is contracted on its LAST axis: `x · Wᵀ`.

  For a left operand `[M, K]` and a right operand `[N, K]`, both contracted on their second axis and with no
  batch axis, the entry `(p, q)` of the product is the inner product of row `p` of the left operand with
  row `q` of the right one: `∑ i : Fin K, l (p, i) · r (q, i)`.  Stated for every extent, over the
  dimension record `DotDims.transposedRhs M K N`, for the contraction's sum itself, for a matrix unit's product
  into a zero accumulator and for a host `dot_general`; a record given by name is brought in by an equation
  `D = DotDims.transposedRhs M K N` (true by `rfl` for a record with these axis lists).
-/
import Idealize.ShloMosaic.PureOps.Ideal
import Idealize.ShloMosaic.PureOps.Ideal.Laws
import Idealize.ShloMosaic.Lib.ValueIdx
import proofs.«169857_j12249246729035_2_alg».proof.Proof.LibDotSum

noncomputable section

namespace Cert.LibTransposedDot

open Idealize.ShloMosaic Idealize.ShloMosaic.ValueIdx
open scoped BigOperators

variable {M K N : Nat}

/-- The left operand is read in the output's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … at the contraction's coordinate; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand in the row the output's COLUMN names … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … at the contraction's coordinate. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction's sum at output entry `(p, q)`: row `p` of the left operand against row `q` of the right. -/
theorem sum_contr (l : (⟨2, ![M, K]⟩ : Shape).Idx → EReal) (r : (⟨2, ![N, K]⟩ : Shape).Idx → EReal) (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ i : Fin K, l (ix2 p i) * r (ix2 q i) := by
  refine Cert.LibDotSum.sum_contr_eq (DotDims.transposedRhs M K N) K rfl rfl l r (ix2 p q) _ _ (fun i => ?_) (fun i => ?_)
  · have hk := contrEquiv1_symm_val (DotDims.transposedRhs M K N) K rfl rfl i
    refine congrArg l (funext fun a => Fin.ext ?_)
    match a with
    | ⟨0, _⟩ => exact lhs_row _ _
    | ⟨1, _⟩ => exact (lhs_col _ _).trans hk
  · have hk := contrEquiv1_symm_val (DotDims.transposedRhs M K N) K rfl rfl i
    refine congrArg r (funext fun a => Fin.ext ?_)
    match a with
    | ⟨0, _⟩ => exact rhs_row _ _
    | ⟨1, _⟩ => exact (rhs_col _ _).trans hk

/-- A matrix unit's product into the zero accumulator, read at `(p, q)`. -/
theorem matmul_zero_apply {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (q : Fin N) :
    matmul D prec l r (constant (F := Ideal) ⟨2, ![M, N]⟩ .f32 0x00000000#32) (ix2 p q)
      = ∑ i : Fin K, l (ix2 p i) * r (ix2 q i) := by
  subst hD
  exact (Ideal.matmul_constant_zero_apply _ prec l r (ix2 p q)).trans (sum_contr l r p q)

/-- A host `dot_general` with these dimension numbers, read at `(p, q)`. -/
theorem dotGeneral_apply {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (q : Fin N) :
    Host.dotGeneral D prec l r (ix2 p q) = ∑ i : Fin K, l (ix2 p i) * r (ix2 q i) := by
  subst hD
  exact (Ideal.dotGeneral_apply _ prec .single l r (ix2 p q)).trans (sum_contr l r p q)

end Cert.LibTransposedDot

end
-- ==== Proof.LibTransposedLinear.lean ====
/-
  A linear layer  x · Wᵀ + b  computed by a matrix unit, read entry by entry over the extended reals, for every extent.

  The left operand `[M, K]` is cast to a narrower float format (the identity on extended reals), multiplied into a zero
  accumulator with a right operand `[N, K]` contracted on its last axis, and a bias `[N]`, reshaped to a row `[1, N]`
  and broadcast over the `M` rows, is added.  Entry `(p, q)` of the result is the inner product of row `p` of `x`
  with row `q` of `W`, plus `b q`.
-/
import Idealize.ShloMosaic.PureOps.Ideal
import Idealize.ShloMosaic.PureOps.Ideal.Laws
import Idealize.ShloMosaic.Lib.ValueIdx
import Idealize.ShloMosaic.Lib.ValueLayout
import proofs.«169857_j12249246729035_2_alg».proof.Proof.LibTransposedDot

noncomputable section

namespace Cert.LibTransposedLinear

open Idealize.ShloMosaic Idealize.ShloMosaic.ValueIdx
open scoped BigOperators

/-- The layer at entry `(p, q)`: the inner product of rows `p` and `q`, plus the bias at `q`. -/
theorem linear_apply {M K N : ℕ} {φx φn φw : FTy} (D : DotDims ⟨2, ![M, K]⟩ ⟨2, ![N, K]⟩ ⟨2, ![M, N]⟩)
    (hD : D = DotDims.transposedRhs M K N) (prec : Option ContractPrecision) (hb : φn.bits < φx.bits)
    (x : FVec Ideal ⟨2, ![M, K]⟩ φx) (w : FVec Ideal ⟨2, ![N, K]⟩ φw) (bias : FVec Ideal ⟨1, ![N]⟩ .f32)
    (hc : (⟨1, ![N]⟩ : Shape).ShapeCasts ⟨2, ![1, N]⟩) (hbc : (⟨2, ![1, N]⟩ : Shape).Broadcasts ⟨2, ![M, N]⟩)
    (p : Fin M) (q : Fin N) :
    addf (matmul D prec (truncf φn x hb) w (constant (F := Ideal) ⟨2, ![M, N]⟩ .f32 0x00000000#32))
        (broadcastTo ⟨2, ![M, N]⟩ (shapeCast ⟨2, ![1, N]⟩ bias hc) hbc) (ix2 p q)
      = (∑ i : Fin K, x (ix2 p i) * w (ix2 q i)) + bias (ix1 q) := by
  show matmul D prec (truncf φn x hb) w (constant (F := Ideal) ⟨2, ![M, N]⟩ .f32 0x00000000#32) (ix2 p q)
      + broadcastTo ⟨2, ![M, N]⟩ (shapeCast ⟨2, ![1, N]⟩ bias hc) hbc (ix2 p q) = _
  rw [Cert.LibTransposedDot.matmul_zero_apply D hD prec (truncf φn x hb) w p q,
    broadcastTo_1b_ab_apply _ hbc p q, shapeCast_a_1a_apply bias hc 0 q]
  rfl

end Cert.LibTransposedLinear

end
-- ==== Proof.LibUnitAxisLayout.lean ====
/-
  Layout operations around a unit axis, read at an index given by its coordinates, for any element type
  and any extents: a column [a, 1] broadcast along its rows to [a, b]; an [a, b] array cast to
  [a, b, 1] and an [a, c] array cast to [a, 1, c] (a trailing, a middle unit axis added); and those
  two shapes broadcast to [a, b, c]. Each only forgets or repeats a coordinate, so the result at
  (p, r, q) is the operand at the coordinates that remain, 0 on the unit axis. Together they read a
  batched outer product  x[:, :, None] * y[:, None, :]  entry by entry.
-/
import Idealize.ShloMosaic.Lib.ValueIdx
import Idealize.ShloMosaic.Lib.Pipeline.Value
import Idealize.ShloMosaic.Lib.ValueLayout

noncomputable section

namespace Cert.Lib.UnitAxisLayout

open Idealize.ShloMosaic Idealize.ShloMosaic.ValueIdx

/-! ## The layout operations of the body, each read at an index given by coordinates -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(p, r, q)`, the operand at `(p, r, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (q : Fin c) :
    broadcastTo ⟨3, ![a, b, c]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An `[a, 1, c]` array broadcast to `[a, b, c]` reads, at `(p, r, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (q : Fin c) :
    broadcastTo ⟨3, ![a, b, c]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

end Layout

end Cert.Lib.UnitAxisLayout

end
-- ==== Proof.LibLeadingBroadcast.lean ====
/-
  A general lemma about a layout operation, about no particular program: an array with a leading unit axis broadcast
  along that axis.
-/
import Idealize.ShloMosaic.Lib.Pipeline.Value
import Idealize.ShloMosaic.Lib.ValueIdx

namespace Cert.LibLeadingBroadcast

open Idealize.ShloMosaic Idealize.ShloMosaic.ValueIdx

/-- A `[1, b, c]` array broadcast to `[a, b, c]` reads, at `(p, r, q)`, the operand at `(0, r, q)`: the unit axis is
    read at `0` whatever `p`, the other two coordinates are carried over. -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (r : Fin b) (q : Fin c) :
    broadcastTo ⟨3, ![a, b, c]⟩ v h (ix3 p r q) = v (ix3 (0 : Fin 1) r q) := by
  refine broadcastTo_apply v h (ix3 p r q) (ix3 (0 : Fin 1) r q) fun ax => ?_
  match ax with
  | ⟨0, _⟩ => rfl
  | ⟨1, _⟩ =>
    show r.val = if b = 1 then 0 else r.val
    split
    · have := r.isLt; omega
    · rfl
  | ⟨2, _⟩ =>
    show q.val = if c = 1 then 0 else q.val
    split
    · have := q.isLt; omega
    · rfl

end Cert.LibLeadingBroadcast
-- ==== Proof.JoinerPayload.lean ====
/-
  The kernel body's two stored values, read entry by entry over the extended reals.

  The body stores two things.  At the first frame tile of a batch element it stores, into a buffer it keeps, the
  prediction side of the output layer plus the output bias: a [64, 1024] array whose entry (u, v) is

      (sum over j of ((sum over d of pred[u, d] * wPred[j, d]) + bPred[j]) * w2[v, j]) + bOut[v].

  At every point it stores the output block, a [1, 32, 64, 1024] array whose entry (0, t, u, v) is the encoder side of the
  output layer at frame t plus the kept buffer's entry (u, v):

      (sum over j of ((sum over e of enc[t, e] * wEnc[j, e]) + bEnc[j]) * w1[v, j]) + kept[u, v].

  Both are two linear layers x · Wᵀ (+ b) one after the other; the casts to the narrow float format are the identity on
  extended reals, and the reshapes and broadcasts only forget or repeat a coordinate.
-/
import proofs.«169857_j12249246729035_2_alg».proof.Proof.Gen.KernelIdeal.Skeleton
import proofs.«169857_j12249246729035_2_alg».proof.Proof.LibTransposedLinear
import proofs.«169857_j12249246729035_2_alg».proof.Proof.LibUnitAxisLayout
import proofs.«169857_j12249246729035_2_alg».proof.Proof.LibLeadingBroadcast
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-- The kept buffer's entry `(u, v)`: the prediction projection of step `u` against row `v` of the right half of the
    output weights, plus the output bias at `v`. -/
theorem kept_apply (x1 : FVec Ideal S1x64x640 .f32) (x4 : FVec Ideal S512x640 .bf16) (x5 : FVec Ideal S512 .f32)
    (x7 : FVec Ideal S1024x512 .bf16) (x8 : FVec Ideal S1024 .f32) (u : Fin 64) (v : Fin 1024) :
    k0_pay1 (F := Ideal) x1 x4 x5 x7 x8 (ix2 u v)
      = (∑ j : Fin 512, ((∑ d : Fin 640, x1 (ix3 (0 : Fin 1) u d) * x4 (ix2 j d)) + x5 (ix1 j)) * x7 (ix2 v j))
        + x8 (ix1 v) := by
  unfold k0_pay1
  rw [shapeCast_self]
  refine (Cert.LibTransposedLinear.linear_apply _ rfl none _ _ _ x8 _ _ u v).trans ?_
  congr 1
  refine Finset.sum_congr rfl fun j _ => ?_
  simp only [shapeCast_self]
  congr 1
  refine (Cert.LibTransposedLinear.linear_apply _ rfl none _ _ _ x5 _ _ u j).trans ?_
  congr 1
  refine Finset.sum_congr rfl fun d _ => ?_
  rw [shapeCast_1ab_ab_apply]

/-- The output block's entry `(0, t, u, v)`: the encoder projection of frame `t` against row `v` of the left half of
    the output weights, plus the kept buffer's entry `(u, v)`. -/
theorem block_apply (x0 : FVec Ideal S1x32x512 .f32) (x2 : FVec Ideal S512x512 .bf16) (x3 : FVec Ideal S512 .f32)
    (x6 : FVec Ideal S1024x512 .bf16) (xs : FVec Ideal S64x1024 .f32) (z : Fin 1) (t : Fin 32) (u : Fin 64) (v : Fin 1024) :
    k0_pay2 (F := Ideal) x0 x2 x3 x6 xs (ix4 z t u v)
      = (∑ j : Fin 512, ((∑ e : Fin 512, x0 (ix3 (0 : Fin 1) t e) * x2 (ix2 j e)) + x3 (ix1 j)) * x6 (ix2 v j))
        + xs (ix2 u v) := by
  unfold k0_pay2
  rw [shapeCast_abc_1abc_apply]
  show broadcastTo S32x64x1024 _ _ (ix3 t u v) + broadcastTo S32x64x1024 _ _ (ix3 t u v) = _
  rw [Cert.Lib.UnitAxisLayout.broadcastTo_a1c_abc_apply, Cert.Lib.UnitAxisLayout.shapeCast_ac_a1c_apply,
    Cert.LibLeadingBroadcast.broadcastTo_1bc_abc_apply, shapeCast_ab_1ab_apply]
  congr 1
  refine (Cert.LibTransposedDot.matmul_zero_apply _ rfl none _ _ t v).trans ?_
  refine Finset.sum_congr rfl fun j _ => ?_
  simp only [shapeCast_self]
  congr 1
  refine (Cert.LibTransposedLinear.linear_apply _ rfl none _ _ _ x3 _ _ t j).trans ?_
  congr 1
  refine Finset.sum_congr rfl fun e _ => ?_
  rw [shapeCast_1ab_ab_apply]

end Cert.KernelIdeal.Payload

end
-- ==== Proof.JoinerSpec.lean ====
/-
  The joint network of a transducer, entry by entry, as one function of its eight argument arrays.

  For a batch element b, an encoder frame t, a prediction step u and a vocabulary entry v,

      out[b, t, u, v] = encOut[b, t, v] + (predOut[b, u, v] + bOut[v])

  where  encProj[b, t, j]  = (sum over e of enc[b, t, e] * wEnc[j, e]) + bEnc[j],
         predProj[b, u, j] = (sum over d of pred[b, u, d] * wPred[j, d]) + bPred[j],
         encOut[b, t, v]   = sum over j of encProj[b, t, j] * wOut[v, j]          (the left half of wOut's columns),
         predOut[b, u, v]  = sum over j of predProj[b, u, j] * wOut[v, 512 + j]   (the right half).

  The term  predOut[b, u, v] + bOut[v]  depends on the batch element and not on the frame: it is what can be computed once
  per batch element and kept.  Grouping the three summands the other way,  (encOut + predOut) + bOut,  gives the same
  extended real: addition of extended reals is associative, infinite summands included.
-/
import Idealize.ShloMosaic.PureOps.Ideal
import Idealize.ShloMosaic.Lib.ValueIdx

noncomputable section

namespace Cert.JoinerSpec

open Idealize.ShloMosaic Idealize.ShloMosaic.ValueIdx
open scoped BigOperators

/-- Column `j` of the left half of the output weights' columns. -/
abbrev leftCol (j : Fin 512) : Fin 1024 := ⟨j.val, by have := j.isLt; omega⟩
/-- Column `j` of the right half: column `512 + j`. -/
abbrev rightCol (j : Fin 512) : Fin 1024 := ⟨512 + j.val, by have := j.isLt; omega⟩

variable (enc : (⟨3, ![8, 256, 512]⟩ : Shape).Idx → EReal) (pred : (⟨3, ![8, 64, 640]⟩ : Shape).Idx → EReal)
  (wEnc : (⟨2, ![512, 512]⟩ : Shape).Idx → EReal) (bEnc : (⟨1, ![512]⟩ : Shape).Idx → EReal)
  (wPred : (⟨2, ![512, 640]⟩ : Shape).Idx → EReal) (bPred : (⟨1, ![512]⟩ : Shape).Idx → EReal)
  (wOut : (⟨2, ![1024, 1024]⟩ : Shape).Idx → EReal) (bOut : (⟨1, ![1024]⟩ : Shape).Idx → EReal)

/-- The encoder projection: frame `(b, t)` against row `j` of the encoder weights, plus the bias. -/
def encProj (b : Fin 8) (t : Fin 256) (j : Fin 512) : EReal :=
  (∑ e : Fin 512, enc (ix3 b t e) * wEnc (ix2 j e)) + bEnc (ix1 j)

/-- The prediction projection: step `(b, u)` against row `j` of the prediction weights, plus the bias. -/
def predProj (b : Fin 8) (u : Fin 64) (j : Fin 512) : EReal :=
  (∑ d : Fin 640, pred (ix3 b u d) * wPred (ix2 j d)) + bPred (ix1 j)

/-- The encoder side of the output layer: the encoder projection against the left half of row `v` of the output weights. -/
def encOut (b : Fin 8) (t : Fin 256) (v : Fin 1024) : EReal :=
  ∑ j : Fin 512, encProj enc wEnc bEnc b t j * wOut (ix2 v (leftCol j))

/-- The prediction side of the output layer: the prediction projection against the right half of row `v`. -/
def predOut (b : Fin 8) (u : Fin 64) (v : Fin 1024) : EReal :=
  ∑ j : Fin 512, predProj pred wPred bPred b u j * wOut (ix2 v (rightCol j))

/-- What does not depend on the frame: the prediction side plus the output bias. -/
def predCache (b : Fin 8) (u : Fin 64) (v : Fin 1024) : EReal :=
  predOut pred wPred bPred wOut b u v + bOut (ix1 v)

/-- The joint network at `(b, t, u, v)`. -/
def jointAt (b : Fin 8) (t : Fin 256) (u : Fin 64) (v : Fin 1024) : EReal :=
  encOut enc wEnc bEnc wOut b t v + predCache pred wPred bPred wOut bOut b u v

/-- The joint network as an array. -/
def joint : (⟨4, ![8, 256, 64, 1024]⟩ : Shape).Idx → EReal := fun i =>
  jointAt enc pred wEnc bEnc wPred bPred wOut bOut ⟨(i 0).val, (i 0).isLt⟩ ⟨(i 1).val, (i 1).isLt⟩ ⟨(i 2).val, (i 2).isLt⟩
    ⟨(i 3).val, (i 3).isLt⟩

theorem joint_ix4 (b : Fin 8) (t : Fin 256) (u : Fin 64) (v : Fin 1024) :
    joint enc pred wEnc bEnc wPred bPred wOut bOut (ix4 b t u v) = jointAt enc pred wEnc bEnc wPred bPred wOut bOut b t u v := rfl

/-- The other grouping of the three summands is the same extended real. -/
theorem jointAt_eq_grouped (b : Fin 8) (t : Fin 256) (u : Fin 64) (v : Fin 1024) :
    jointAt enc pred wEnc bEnc wPred bPred wOut bOut b t u v
      = (encOut enc wEnc bEnc wOut b t v + predOut pred wPred bPred wOut b u v) + bOut (ix1 v) := by
  unfold jointAt predCache
  exact (add_assoc _ _ _).symm

end Cert.JoinerSpec

end
-- ==== Proof.JoinerPoint.lean ====
/-
  One run of the kernel body in terms of the whole argument arrays.

  At a grid point the body sees blocks: 32 frames of one batch element of the encoder output, that batch element's
  prediction output, and the weight and bias arrays whole (the output weights as their two column halves).  If the
  loaded blocks are those parts of the arrays, the value stored into the kept buffer is the frame-independent part of the
  joint network for that batch element, and the value stored into the output block is the joint network at the block's
  32 frames, provided the kept buffer holds that frame-independent part.
-/
import proofs.«169857_j12249246729035_2_alg».proof.Proof.JoinerPayload
import proofs.«169857_j12249246729035_2_alg».proof.Proof.JoinerSpec

noncomputable section

namespace Cert.KernelIdeal.Point

open Cert.KernelIdeal Cert.KernelIdeal.Gen Idealize.ShloMosaic Idealize.ShloMosaic.ValueIdx Cert.JoinerSpec
open scoped BigOperators

/-- Frame `r` of frame tile `k`: frame `32 k + r`. -/
abbrev frame (k : Fin 8) (r : Fin 32) : Fin 256 := ⟨32 * k.val + r.val, by have := k.isLt; have := r.isLt; omega⟩

variable (enc : (⟨3, ![8, 256, 512]⟩ : Shape).Idx → EReal) (pred : (⟨3, ![8, 64, 640]⟩ : Shape).Idx → EReal)
  (wEnc : (⟨2, ![512, 512]⟩ : Shape).Idx → EReal) (bEnc : (⟨1, ![512]⟩ : Shape).Idx → EReal)
  (wPred : (⟨2, ![512, 640]⟩ : Shape).Idx → EReal) (bPred : (⟨1, ![512]⟩ : Shape).Idx → EReal)
  (wOut : (⟨2, ![1024, 1024]⟩ : Shape).Idx → EReal) (bOut : (⟨1, ![1024]⟩ : Shape).Idx → EReal)

/-- The value stored into the kept buffer, when the loaded blocks are batch element `b`'s prediction output and the
    weights: the frame-independent part of the joint network. -/
theorem kept_value (b : Fin 8) (x1 : FVec Ideal S1x64x640 .f32) (x4 : FVec Ideal S512x640 .bf16) (x5 : FVec Ideal S512 .f32)
    (x7 : FVec Ideal S1024x512 .bf16) (x8 : FVec Ideal S1024 .f32)
    (h1 : ∀ (u : Fin 64) (d : Fin 640), x1 (ix3 (0 : Fin 1) u d) = pred (ix3 b u d))
    (h4 : ∀ (j : Fin 512) (d : Fin 640), x4 (ix2 j d) = wPred (ix2 j d))
    (h5 : ∀ j : Fin 512, x5 (ix1 j) = bPred (ix1 j))
    (h7 : ∀ (v : Fin 1024) (j : Fin 512), x7 (ix2 v j) = wOut (ix2 v (rightCol j)))
    (h8 : ∀ v : Fin 1024, x8 (ix1 v) = bOut (ix1 v)) (u : Fin 64) (v : Fin 1024) :
    k0_pay1 (F := Ideal) x1 x4 x5 x7 x8 (ix2 u v) = predCache pred wPred bPred wOut bOut b u v := by
  rw [Payload.kept_apply]
  simp only [h1, h4, h5, h7, h8]
  rfl

/-- The value stored into the output block at frame tile `k` of batch element `b`, when the loaded blocks are those
    32 frames of the encoder output and the weights and the kept buffer holds the frame-independent part: the joint
    network at those frames. -/
theorem block_value (b k : Fin 8) (x0 : FVec Ideal S1x32x512 .f32) (x2 : FVec Ideal S512x512 .bf16) (x3 : FVec Ideal S512 .f32)
    (x6 : FVec Ideal S1024x512 .bf16) (xs : FVec Ideal S64x1024 .f32)
    (h0 : ∀ (r : Fin 32) (e : Fin 512), x0 (ix3 (0 : Fin 1) r e) = enc (ix3 b (frame k r) e))
    (h2 : ∀ j e : Fin 512, x2 (ix2 j e) = wEnc (ix2 j e))
    (h3 : ∀ j : Fin 512, x3 (ix1 j) = bEnc (ix1 j))
    (h6 : ∀ (v : Fin 1024) (j : Fin 512), x6 (ix2 v j) = wOut (ix2 v (leftCol j)))
    (hs : ∀ (u : Fin 64) (v : Fin 1024), xs (ix2 u v) = predCache pred wPred bPred wOut bOut b u v)
    (z : Fin 1) (r : Fin 32) (u : Fin 64) (v : Fin 1024) :
    k0_pay2 (F := Ideal) x0 x2 x3 x6 xs (ix4 z r u v)
      = jointAt enc pred wEnc bEnc wPred bPred wOut bOut b (frame k r) u v := by
  rw [Payload.block_apply]
  simp only [h0, h2, h3, h6, hs]
  rfl

end Cert.KernelIdeal.Point

end
-- ==== Proof.JoinerBlocks.lean ====
/-
  The kernel's result array is the joint network of its argument arrays.

  The grid has 64 points: point n works on batch element n / 8 and frame tile n mod 8 (32 frames).  The buffer the kernel
  keeps between points is written at the first tile of each batch element with the frame-independent part of the joint
  network for that batch element, and left alone at the other seven tiles; so after every point n it holds that part for
  batch element n / 8 (induction on the point: a first tile writes it, a later tile keeps what the point before left, and
  the point before belongs to the same batch element).  Hence every point writes back the joint network at its 32 frames
  of its batch element, and the 64 blocks tile the array.

  The arrays the kernel reads are the arguments, except that the program first cuts the output weights into their two
  column halves and casts the weights to a narrower float format, which on extended reals changes nothing.
-/
import proofs.«169857_j12249246729035_2_alg».proof.Proof.Gen.KernelIdeal.Value
import proofs.«169857_j12249246729035_2_alg».proof.Proof.JoinerPieces
import proofs.«169857_j12249246729035_2_alg».proof.Proof.JoinerPoint
import Idealize.ShloMosaic.Lib.Pipeline.Value
import Idealize.ShloMosaic.Lib.StableHlo.Run

noncomputable section

namespace Cert.KernelIdeal.Joint

open Cert.KernelIdeal Cert.KernelIdeal.Gen Idealize.ShloMosaic Idealize.ShloMosaic.TcCoe Idealize.SL.Sem
open Idealize.ShloMosaic.ValueIdx Cert.JoinerSpec Cert.KernelIdeal.Point
open Idealize.ShloMosaic.Pipeline (Dat)

variable (m : (ℓ : Loc nD τ sig) → Buf (Elt Ideal) ℓ) (ρ : Dev nD → PrngReg)

/-! ## The argument arrays of a core, and the result -/

abbrev enc (c : Dev nD) : S8x256x512.Idx → EReal := m ((c : Thread nD τ).loc main_arg0)
abbrev pred (c : Dev nD) : S8x64x640.Idx → EReal := m ((c : Thread nD τ).loc main_arg1)
abbrev wEnc (c : Dev nD) : S512x512.Idx → EReal := m ((c : Thread nD τ).loc main_arg2)
abbrev bEnc (c : Dev nD) : S512.Idx → EReal := m ((c : Thread nD τ).loc main_arg3)
abbrev wPred (c : Dev nD) : S512x640.Idx → EReal := m ((c : Thread nD τ).loc main_arg4)
abbrev bPred (c : Dev nD) : S512.Idx → EReal := m ((c : Thread nD τ).loc main_arg5)
abbrev wOut (c : Dev nD) : S1024x1024.Idx → EReal := m ((c : Thread nD τ).loc main_arg6)
abbrev bOut (c : Dev nD) : S1024.Idx → EReal := m ((c : Thread nD τ).loc main_arg7)

/-- The joint network of core `c`'s argument arrays. -/
abbrev result (c : Dev nD) : Buf (Elt Ideal) ((c : Thread nD τ).loc main_v6) :=
  joint (enc m c) (pred m c) (wEnc m c) (bEnc m c) (wPred m c) (bPred m c) (wOut m c) (bOut m c)

/-! ## The grid: point n is batch element n / 8, frame tile n mod 8 -/

theorem N64 : cfg0.N = 64 := N_0

/-- The batch element of point `n`. -/
abbrev bat (n : ℕ) (h : n < cfg0.N) : Fin 8 := ⟨n / 8, by have := N64; omega⟩
/-- The frame tile of point `n`. -/
abbrev tile (n : ℕ) : Fin 8 := ⟨n % 8, Nat.mod_lt _ (by decide)⟩

/-- The encoder window's block index at a point: (batch element, frame tile, 0). -/
theorem idx_enc : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
/-- The prediction window's: (batch element, 0, 0). -/
theorem idx_pred : ∀ t : Fin cfg0.N, win0_1.index t (0 : Fin 3) = t.val / 8 ∧ win0_1.index t (1 : Fin 3) = 0
    ∧ win0_1.index t (2 : Fin 3) = 0 :=
  (by decide +kernel : ∀ t : Fin grid0.N, _)
/-- The weights' and biases' windows do not move. -/
theorem idx_weights : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0 :=
  (by decide +kernel : ∀ t : Fin grid0.N, _)
/-- The output window's: (batch element, frame tile, 0, 0). -/
theorem idx_out : ∀ t : Fin cfg0.N, win0_9.index t (0 : Fin 4) = t.val / 8 ∧ win0_9.index t (1 : Fin 4) = t.val % 8
    ∧ win0_9.index t (2 : Fin 4) = 0 ∧ win0_9.index t (3 : Fin 4) = 0 :=
  (by decide +kernel : ∀ t : Fin grid0.N, _)

/-! ## The arrays the program writes before the kernel runs -/

/-- The encoder weights in the narrow format. -/
theorem V_wEnc (c : Dev nD) : (V m c main_v4 : S512x512.Idx → EReal) = wEnc m c := by
  dsimp only [Gen.V, Gen.hostOps0]; after_results; rfl
/-- The prediction weights in the narrow format. -/
theorem V_wPred (c : Dev nD) : (V m c main_v5 : S512x640.Idx → EReal) = wPred m c := by
  dsimp only [Gen.V, Gen.hostOps0]; after_results; rfl
/-- The left half of the output weights' columns. -/
theorem V_w1 (c : Dev nD) : (V m c main_v1 : S1024x512.Idx → EReal)
    = extractStridedSlice S1024x512 ![0, 0] (wOut m c) slices_S1024x1024_S1024x512_0_0 := by
  dsimp only [Gen.V, Gen.hostOps0]; after_results; rfl
/-- The right half. -/
theorem V_w2 (c : Dev nD) : (V m c main_v3 : S1024x512.Idx → EReal)
    = extractStridedSlice S1024x512 ![0, 512] (wOut m c) slices_S1024x1024_S1024x512_0_512 := by
  dsimp only [Gen.V, Gen.hostOps0]; after_results; rfl

/-! ## What the windows' blocks hold at a point -/

/-- The encoder block: frames `32 (t mod 8) + r` of batch element `t / 8`. -/
theorem blk_enc (c : Dev nD) (t : Fin cfg0.N) (r : Fin 32) (e : Fin 512) :
    (iblk m c 0 t : S1x32x512.Idx → EReal) (ix3 (0 : Fin 1) r e) = enc m c (ix3 (bat t.val t.isLt) (frame (tile t.val) r) e) := by
  unfold iblk
  rw [View.read_apply]
  show V m c main_arg0 (((cfg0.win 0).blk t).view.emb (ix3 (0 : Fin 1) r e)) = _
  rw [V_main_arg0]
  obtain ⟨e0, e1, e2⟩ := idx_enc t
  refine congrArg (m ((c : Thread nD τ).loc main_arg0)) (funext fun a => Fin.ext ?_)
  match a with
  | ⟨0, _⟩ => show win0_0.index t (0 : Fin 3) * 1 + 1 * 0 = t.val / 8; omega
  | ⟨1, _⟩ => show win0_0.index t (1 : Fin 3) * 32 + 1 * r.val = 32 * (t.val % 8) + r.val; omega
  | ⟨2, _⟩ => show win0_0.index t (2 : Fin 3) * 512 + 1 * e.val = e.val; omega

/-- The prediction block: batch element `t / 8`. -/
theorem blk_pred (c : Dev nD) (t : Fin cfg0.N) (u : Fin 64) (d : Fin 640) :
    (iblk m c 1 t : S1x64x640.Idx → EReal) (ix3 (0 : Fin 1) u d) = pred m c (ix3 (bat t.val t.isLt) u d) := by
  unfold iblk
  rw [View.read_apply]
  show V m c main_arg1 (((cfg0.win 1).blk t).view.emb (ix3 (0 : Fin 1) u d)) = _
  rw [V_main_arg1]
  obtain ⟨e0, e1, e2⟩ := idx_pred t
  refine congrArg (m ((c : Thread nD τ).loc main_arg1)) (funext fun a => Fin.ext ?_)
  match a with
  | ⟨0, _⟩ => show win0_1.index t (0 : Fin 3) * 1 + 1 * 0 = t.val / 8; omega
  | ⟨1, _⟩ => show win0_1.index t (1 : Fin 3) * 64 + 1 * u.val = u.val; omega
  | ⟨2, _⟩ => show win0_1.index t (2 : Fin 3) * 640 + 1 * d.val = d.val; omega

/-- The encoder weights, whole. -/
theorem blk_wEnc (c : Dev nD) (t : Fin cfg0.N) (j e : Fin 512) :
    (iblk m c 2 t : S512x512.Idx → EReal) (ix2 j e) = wEnc m c (ix2 j e) := by
  unfold iblk
  rw [View.read_apply]
  show (V m c main_v4 : S512x512.Idx → EReal) (((cfg0.win 2).blk t).view.emb (ix2 j e)) = _
  rw [V_wEnc]
  obtain ⟨e0, e1, -⟩ := idx_weights t
  refine congrArg (wEnc m c) (funext fun a => Fin.ext ?_)
  match a with
  | ⟨0, _⟩ => show win0_2.index t (0 : Fin 2) * 512 + 1 * j.val = j.val; omega
  | ⟨1, _⟩ => show win0_2.index t (1 : Fin 2) * 512 + 1 * e.val = e.val; omega

/-- The encoder bias, whole. -/
theorem blk_bEnc (c : Dev nD) (t : Fin cfg0.N) (j : Fin 512) :
    (iblk m c 3 t : S512.Idx → EReal) (ix1 j) = bEnc m c (ix1 j) := by
  unfold iblk
  rw [View.read_apply]
  show V m c main_arg3 (((cfg0.win 3).blk t).view.emb (ix1 j)) = _
  rw [V_main_arg3]
  obtain ⟨-, -, e2, -⟩ := idx_weights t
  refine congrArg (m ((c : Thread nD τ).loc main_arg3)) (funext fun a => Fin.ext ?_)
  match a with
  | ⟨0, _⟩ => show win0_3.index t (0 : Fin 1) * 512 + 1 * j.val = j.val; omega

/-- The prediction weights, whole. -/
theorem blk_wPred (c : Dev nD) (t : Fin cfg0.N) (j : Fin 512) (d : Fin 640) :
    (iblk m c 4 t : S512x640.Idx → EReal) (ix2 j d) = wPred m c (ix2 j d) := by
  unfold iblk
  rw [View.read_apply]
  show (V m c main_v5 : S512x640.Idx → EReal) (((cfg0.win 4).blk t).view.emb (ix2 j d)) = _
  rw [V_wPred]
  obtain ⟨-, -, -, e3, e4, -⟩ := idx_weights t
  refine congrArg (wPred m c) (funext fun a => Fin.ext ?_)
  match a with
  | ⟨0, _⟩ => show win0_4.index t (0 : Fin 2) * 512 + 1 * j.val = j.val; omega
  | ⟨1, _⟩ => show win0_4.index t (1 : Fin 2) * 640 + 1 * d.val = d.val; omega

/-- The prediction bias, whole. -/
theorem blk_bPred (c : Dev nD) (t : Fin cfg0.N) (j : Fin 512) :
    (iblk m c 5 t : S512.Idx → EReal) (ix1 j) = bPred m c (ix1 j) := by
  unfold iblk
  rw [View.read_apply]
  show V m c main_arg5 (((cfg0.win 5).blk t).view.emb (ix1 j)) = _
  rw [V_main_arg5]
  obtain ⟨-, -, -, -, -, e5, -⟩ := idx_weights t
  refine congrArg (m ((c : Thread nD τ).loc main_arg5)) (funext fun a => Fin.ext ?_)
  match a with
  | ⟨0, _⟩ => show win0_5.index t (0 : Fin 1) * 512 + 1 * j.val = j.val; omega

/-- The left half of the output weights' columns, whole. -/
theorem blk_w1 (c : Dev nD) (t : Fin cfg0.N) (v : Fin 1024) (j : Fin 512) :
    (iblk m c 6 t : S1024x512.Idx → EReal) (ix2 v j) = wOut m c (ix2 v (leftCol j)) := by
  unfold iblk
  rw [View.read_apply]
  show (V m c main_v1 : S1024x512.Idx → EReal) (((cfg0.win 6).blk t).view.emb (ix2 v j)) = _
  rw [V_w1]
  obtain ⟨-, -, -, -, -, -, e6, e7, -⟩ := idx_weights t
  refine extractStridedSlice_apply ![0, 0] (wOut m c) slices_S1024x1024_S1024x512_0_0 _ (ix2 v (leftCol j)) fun a => ?_
  match a with
  | ⟨0, _⟩ => show v.val = 0 + (win0_6.index t (0 : Fin 2) * 1024 + 1 * v.val); omega
  | ⟨1, _⟩ => show j.val = 0 + (win0_6.index t (1 : Fin 2) * 512 + 1 * j.val); omega

/-- The right half, whole. -/
theorem blk_w2 (c : Dev nD) (t : Fin cfg0.N) (v : Fin 1024) (j : Fin 512) :
    (iblk m c 7 t : S1024x512.Idx → EReal) (ix2 v j) = wOut m c (ix2 v (rightCol j)) := by
  unfold iblk
  rw [View.read_apply]
  show (V m c main_v3 : S1024x512.Idx → EReal) (((cfg0.win 7).blk t).view.emb (ix2 v j)) = _
  rw [V_w2]
  obtain ⟨-, -, -, -, -, -, -, -, e8, e9, -⟩ := idx_weights t
  refine extractStridedSlice_apply ![0, 512] (wOut m c) slices_S1024x1024_S1024x512_0_512 _ (ix2 v (rightCol j)) fun a => ?_
  match a with
  | ⟨0, _⟩ => show v.val = 0 + (win0_7.index t (0 : Fin 2) * 1024 + 1 * v.val); omega
  | ⟨1, _⟩ => show 512 + j.val = 512 + (win0_7.index t (1 : Fin 2) * 512 + 1 * j.val); omega

/-- The output bias, whole. -/
theorem blk_bOut (c : Dev nD) (t : Fin cfg0.N) (v : Fin 1024) :
    (iblk m c 8 t : S1024.Idx → EReal) (ix1 v) = bOut m c (ix1 v) := by
  unfold iblk
  rw [View.read_apply]
  show V m c main_arg7 (((cfg0.win 8).blk t).view.emb (ix1 v)) = _
  rw [V_main_arg7]
  obtain ⟨-, -, -, -, -, -, -, -, -, -, e10⟩ := idx_weights t
  refine congrArg (m ((c : Thread nD τ).loc main_arg7)) (funext fun a => Fin.ext ?_)
  match a with
  | ⟨0, _⟩ => show win0_8.index t (0 : Fin 1) * 1024 + 1 * v.val = v.val; omega

/-! ## The kept buffer after each point -/

/-- A first tile writes the frame-independent part for its batch element. -/
theorem kept_first (c : Dev nD) (t : Fin cfg0.N) (h0 : t.val % 8 = 0) (u : Fin 64) (v : Fin 1024) :
    (outsAt0 m c t.val t.isLt).2 (ix2 u v)
      = predCache (pred m c) (wPred m c) (bPred m c) (wOut m c) (bOut m c) (bat t.val t.isLt) u v := by
  rw [outsAt0_A m c t h0]
  dsimp only
  rw [Pieces.kept_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)]
  exact kept_value (pred m c) (wPred m c) (bPred m c) (wOut m c) (bOut m c) (bat t.val t.isLt) _ _ _ _ _
    (blk_pred m c t) (blk_wPred m c t) (blk_bPred m c t) (blk_w2 m c t) (blk_bOut m c t) u v

/-- After every point the kept buffer holds the frame-independent part for the point's batch element. -/
theorem kept_eq (c : Dev nD) : ∀ (n : ℕ) (h : n < cfg0.N) (u : Fin 64) (v : Fin 1024),
    (outsAt0 m c n h).2 (ix2 u v) = predCache (pred m c) (wPred m c) (bPred m c) (wOut m c) (bOut m c) (bat n h) u v
  | 0, h, u, v => kept_first m c ⟨0, h⟩ rfl u v
  | n + 1, h, u, v => by
    by_cases h0 : (n + 1) % 8 = 0
    · exact kept_first m c ⟨n + 1, h⟩ h0 u v
    · rw [outsAt0_B m c ⟨n + 1, h⟩ h0]
      dsimp only
      unfold sout0_B_0
      show (outsAt0 m c n _).2 (ix2 u v) = _
      rw [kept_eq c n]
      have hb : bat n (Nat.lt_of_succ_lt h) = bat (n + 1) h := Fin.ext (by show n / 8 = (n + 1) / 8; omega)
      rw [hb]

/-! ## The output block after each point -/

/-- After point `t` the output block holds the joint network at the point's batch element and 32 frames. -/
theorem block_eq (c : Dev nD) (t : Fin cfg0.N) (y : S1x32x64x1024.Idx) :
    (outsAt0 m c t.val t.isLt).1 y
      = jointAt (enc m c) (pred m c) (wEnc m c) (bEnc m c) (wPred m c) (bPred m c) (wOut m c) (bOut m c) (bat t.val t.isLt)
          (frame (tile t.val) ⟨(y 1).val, (y 1).isLt⟩) ⟨(y 2).val, (y 2).isLt⟩ ⟨(y 3).val, (y 3).isLt⟩ := by
  obtain ⟨z, r, u, v, rfl⟩ : ∃ (z : Fin 1) (r : Fin 32) (u : Fin 64) (v : Fin 1024), y = ix4 z r u v :=
    ⟨y 0, y 1, y 2, y 3, eq_ix4 y⟩
  show _ = jointAt (enc m c) (pred m c) (wEnc m c) (bEnc m c) (wPred m c) (bPred m c) (wOut m c) (bOut m c) (bat t.val t.isLt) (frame (tile t.val) r) u v
  by_cases h0 : t.val % 8 = 0
  · rw [outsAt0_A m c t h0]
    dsimp only
    rw [Pieces.block_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)]
    exact block_value (enc m c) (pred m c) (wEnc m c) (bEnc m c) (wPred m c) (bPred m c) (wOut m c) (bOut m c) (bat t.val t.isLt) (tile t.val) _ _ _ _ _
      (blk_enc m c t) (blk_wEnc m c t) (blk_bEnc m c t) (blk_w1 m c t)
      (fun u v => kept_value (pred m c) (wPred m c) (bPred m c) (wOut m c) (bOut m c) (bat t.val t.isLt) _ _ _ _ _
        (blk_pred m c t) (blk_wPred m c t) (blk_bPred m c t) (blk_w2 m c t) (blk_bOut m c t) u v) z r u v
  · rw [outsAt0_B m c t h0]
    dsimp only
    rw [Pieces.block_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t)]
    have hN := N64
    have hb : bat (t.val - 1) (Nat.lt_of_le_of_lt (Nat.sub_le _ _) t.isLt) = bat t.val t.isLt :=
      Fin.ext (by show (t.val - 1) / 8 = t.val / 8; omega)
    exact block_value (enc m c) (pred m c) (wEnc m c) (bEnc m c) (wPred m c) (bPred m c) (wOut m c) (bOut m c) (bat t.val t.isLt) (tile t.val) _ _ _ _ _
      (blk_enc m c t) (blk_wEnc m c t) (blk_bEnc m c t) (blk_w1 m c t)
      (fun u v => (kept_eq m c (t.val - 1) _ u v).trans (by rw [hb])) z r u v

/-! ## From blocks to the array -/

/-- What point `t` writes back is its block of the joint network. -/
theorem flushed_eq (c : Dev nD) (t : Fin cfg0.N) :
    (dats m 0 c).flushed 9 t = ((cfg0.win 9).blk t).view.read (Elt Ideal) (result m c) := by
  rw [Value.flushed9]
  funext y
  rw [View.read_apply]
  show (outsAt0 m c t.val t.isLt).1 y = result m c (((cfg0.win 9).blk t).view.emb y)
  refine (block_eq m c t y).trans ?_
  obtain ⟨e0, e1, e2, e3⟩ := idx_out t
  have hy : (y 0).val < 1 := (y 0).isLt
  show jointAt (enc m c) (pred m c) (wEnc m c) (bEnc m c) (wPred m c) (bPred m c) (wOut m c) (bOut m c) _ _ _ _ = jointAt (enc m c) (pred m c) (wEnc m c) (bEnc m c) (wPred m c) (bPred m c) (wOut m c) (bOut m c) _ _ _ _
  congr 1 <;> apply Fin.ext
  · show t.val / 8 = win0_9.index t (0 : Fin 4) * 1 + 1 * (y 0).val; omega
  · show 32 * (t.val % 8) + (y 1).val = win0_9.index t (1 : Fin 4) * 32 + 1 * (y 1).val; omega
  · show (y 2).val = win0_9.index t (2 : Fin 4) * 64 + 1 * (y 2).val; omega
  · show (y 3).val = win0_9.index t (3 : Fin 4) * 1024 + 1 * (y 3).val; omega

/-- An index of the result array is in point `t`'s block iff each coordinate is in the block's range on its axis. -/
theorem mem_blk (t : Fin cfg0.N) (i : S8x256x64x1024.Idx) :
    i ∈ ((cfg0.win 9).blk t).view.set ↔ ∀ a : Fin 4, win0_9.index t a * S1x32x64x1024.size a ≤ (i a).val
      ∧ (i a).val < win0_9.index t a * S1x32x64x1024.size a + S1x32x64x1024.size a := by
  show i ∈ ((View.whole main_v6).slice (win0_9.rect t)).set ↔ _
  rw [View.set_slice_whole, Rect.mem_set_unit]
  exact Iff.rfl

/-- Every index of the result array is in some point's block: batch element `b`, frame `f` is point `8 b + f / 32`. -/
theorem cover (i : S8x256x64x1024.Idx) :
    ∃ t : Fin cfg0.N, (cfg0.win 9).flush t = true ∧ i ∈ ((cfg0.win 9).blk t).view.set := by
  have h0 : (i 0).val < 8 := (i 0).isLt
  have h1 : (i 1).val < 256 := (i 1).isLt
  have h2 : (i 2).val < 64 := (i 2).isLt
  have h3 : (i 3).val < 1024 := (i 3).isLt
  have hN := N64
  obtain ⟨t, ht⟩ : ∃ t : Fin cfg0.N, t.val = 8 * (i 0).val + (i 1).val / 32 :=
    ⟨⟨8 * (i 0).val + (i 1).val / 32, by omega⟩, rfl⟩
  refine ⟨t, flush0_9 t, ?_⟩
  rw [mem_blk]
  obtain ⟨e0, e1, e2, e3⟩ := idx_out t
  intro a
  match a with
  | ⟨0, _⟩ =>
    show win0_9.index t (0 : Fin 4) * 1 ≤ (i 0).val ∧ (i 0).val < win0_9.index t (0 : Fin 4) * 1 + 1
    omega
  | ⟨1, _⟩ =>
    show win0_9.index t (1 : Fin 4) * 32 ≤ (i 1).val ∧ (i 1).val < win0_9.index t (1 : Fin 4) * 32 + 32
    omega
  | ⟨2, _⟩ =>
    show win0_9.index t (2 : Fin 4) * 64 ≤ (i 2).val ∧ (i 2).val < win0_9.index t (2 : Fin 4) * 64 + 64
    omega
  | ⟨3, _⟩ =>
    show win0_9.index t (3 : Fin 4) * 1024 ≤ (i 3).val ∧ (i 3).val < win0_9.index t (3 : Fin 4) * 1024 + 1024
    omega

/-- So the result array ends holding the joint network. -/
theorem final (c : Dev nD) : (dats m 0 c).arrAt 9 cfg0.N = result m c :=
  (dats m 0 c).arrAt_eq_of_cover 9 (result m c) (fun t _ => flushed_eq m c t) cover

/-- The kernel's run: it terminates with the result array at the joint network and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks (F := Ideal) m ρ)

end Cert.KernelIdeal.Joint

end
-- ==== Proof.JoinerReference.lean ====
/-
  The reference program computes the joint network with its three summands grouped to the left.

  Read one operation at a time, the reference's result at (b, t, u, v) is

      (encOut[b, t, v] + predOut[b, u, v]) + bOut[v]:

  two matrix products with a bias row added, two more against the two halves of the output weights' columns, the
  results repeated along the axis each lacks, and the output bias repeated along the other three axes.  Every
  broadcast and slice only forgets, repeats or shifts a coordinate.
-/
import proofs.«169857_j12249246729035_2_alg».proof.Proof.Gen.ReferenceIdeal.Read
import proofs.«169857_j12249246729035_2_alg».proof.Proof.JoinerSpec

noncomputable section

namespace Cert.ReferenceIdeal.Joint

open Cert.ReferenceIdeal Cert.ReferenceIdeal.Read Idealize.ShloMosaic Idealize.ShloMosaic.ValueIdx Cert.JoinerSpec
open scoped BigOperators

/-! The indices the layout operations read at, written by coordinates. -/

theorem enc_row (b : Fin 8) (t : Fin 256) (u : Fin 64) (v : Fin 1024) (k : Fin 512) :
    lidx_main_v10 (idx_main_v11 (idx_main_v14 (ix4 b t u v))) k = ix3 b t k := funext fun a => Fin.ext (by match a with | ⟨0, _⟩ => rfl | ⟨1, _⟩ => rfl | ⟨2, _⟩ => rfl)
theorem left_row (b : Fin 8) (t : Fin 256) (u : Fin 64) (v : Fin 1024) (k : Fin 512) :
    ridx_main_v10 (idx_main_v11 (idx_main_v14 (ix4 b t u v))) k = ix2 v k := funext fun a => Fin.ext (by match a with | ⟨0, _⟩ => rfl | ⟨1, _⟩ => rfl)
theorem enc_in (b : Fin 8) (t : Fin 256) (k e : Fin 512) : lidx_main_v0 (ix3 b t k) e = ix3 b t e := funext fun a => Fin.ext (by match a with | ⟨0, _⟩ => rfl | ⟨1, _⟩ => rfl | ⟨2, _⟩ => rfl)
theorem enc_w (b : Fin 8) (t : Fin 256) (k e : Fin 512) : ridx_main_v0 (ix3 b t k) e = ix2 k e := funext fun a => Fin.ext (by match a with | ⟨0, _⟩ => rfl | ⟨1, _⟩ => rfl)
theorem enc_bias (b : Fin 8) (t : Fin 256) (k : Fin 512) : idx_main_v1 (idx_main_v2 (ix3 b t k)) = ix1 k := funext fun a => Fin.ext (by match a with | ⟨0, _⟩ => rfl)
theorem left_col (v : Fin 1024) (k : Fin 512) : idx_main_v8 (ix2 v k) = ix2 v (leftCol k) := funext fun a => Fin.ext (by match a with | ⟨0, _⟩ => rfl | ⟨1, _⟩ => rfl)
theorem pred_row (b : Fin 8) (t : Fin 256) (u : Fin 64) (v : Fin 1024) (k : Fin 512) :
    lidx_main_v12 (idx_main_v13 (idx_main_v15 (ix4 b t u v))) k = ix3 b u k := funext fun a => Fin.ext (by match a with | ⟨0, _⟩ => rfl | ⟨1, _⟩ => rfl | ⟨2, _⟩ => rfl)
theorem right_row (b : Fin 8) (t : Fin 256) (u : Fin 64) (v : Fin 1024) (k : Fin 512) :
    ridx_main_v12 (idx_main_v13 (idx_main_v15 (ix4 b t u v))) k = ix2 v k := funext fun a => Fin.ext (by match a with | ⟨0, _⟩ => rfl | ⟨1, _⟩ => rfl)
theorem pred_in (b : Fin 8) (u : Fin 64) (k : Fin 512) (d : Fin 640) : lidx_main_v4 (ix3 b u k) d = ix3 b u d := funext fun a => Fin.ext (by match a with | ⟨0, _⟩ => rfl | ⟨1, _⟩ => rfl | ⟨2, _⟩ => rfl)
theorem pred_w (b : Fin 8) (u : Fin 64) (k : Fin 512) (d : Fin 640) : ridx_main_v4 (ix3 b u k) d = ix2 k d := funext fun a => Fin.ext (by match a with | ⟨0, _⟩ => rfl | ⟨1, _⟩ => rfl)
theorem pred_bias (b : Fin 8) (u : Fin 64) (k : Fin 512) : idx_main_v5 (idx_main_v6 (ix3 b u k)) = ix1 k := funext fun a => Fin.ext (by match a with | ⟨0, _⟩ => rfl)
theorem right_col (v : Fin 1024) (k : Fin 512) : idx_main_v9 (ix2 v k) = ix2 v (rightCol k) := funext fun a => Fin.ext (by match a with | ⟨0, _⟩ => rfl | ⟨1, _⟩ => rfl)
theorem out_bias (b : Fin 8) (t : Fin 256) (u : Fin 64) (v : Fin 1024) :
    idx_main_v17 (idx_main_v18 (ix4 b t u v)) = ix1 v := funext fun a => Fin.ext (by match a with | ⟨0, _⟩ => rfl)

/-- The reference's result at `(b, t, u, v)`: the encoder side plus the prediction side, then the output bias. -/
theorem reference_apply (x0 : (⟨S8x256x512, .f32⟩ : BufTy).Contents (Elt Ideal)) (x1 : (⟨S8x64x640, .f32⟩ : BufTy).Contents (Elt Ideal))
    (x2 : (⟨S512x512, .f32⟩ : BufTy).Contents (Elt Ideal)) (x3 : (⟨S512, .f32⟩ : BufTy).Contents (Elt Ideal))
    (x4 : (⟨S512x640, .f32⟩ : BufTy).Contents (Elt Ideal)) (x5 : (⟨S512, .f32⟩ : BufTy).Contents (Elt Ideal))
    (x6 : (⟨S1024x1024, .f32⟩ : BufTy).Contents (Elt Ideal)) (x7 : (⟨S1024, .f32⟩ : BufTy).Contents (Elt Ideal))
    (b : Fin 8) (t : Fin 256) (u : Fin 64) (v : Fin 1024) :
    val_main_v19 (F := Ideal) x0 x1 x2 x3 x4 x5 x6 x7 (ix4 b t u v)
      = (encOut x0 x2 x3 x6 b t v + predOut x1 x4 x5 x6 b u v) + x7 (ix1 v) := by
  rw [val_main_v19_apply, val_main_v16_apply, val_main_v14_apply, val_main_v11_apply, val_main_v10_apply,
    val_main_v15_apply, val_main_v13_apply, val_main_v12_apply, val_main_v18_apply, val_main_v17_apply]
  simp only [enc_row, left_row, pred_row, right_row, out_bias, val_main_v3_apply, val_main_v0_apply, val_main_v2_apply,
    val_main_v1_apply, val_main_v8_apply, val_main_v7_apply, val_main_v4_apply, val_main_v6_apply, val_main_v5_apply,
    val_main_v9_apply, enc_in, enc_w, enc_bias, left_col, pred_in, pred_w, pred_bias, right_col, Ideal.addf_def]
  rfl

/-- So the reference's result is the joint network. -/
theorem reference_eq (x0 : (⟨S8x256x512, .f32⟩ : BufTy).Contents (Elt Ideal)) (x1 : (⟨S8x64x640, .f32⟩ : BufTy).Contents (Elt Ideal))
    (x2 : (⟨S512x512, .f32⟩ : BufTy).Contents (Elt Ideal)) (x3 : (⟨S512, .f32⟩ : BufTy).Contents (Elt Ideal))
    (x4 : (⟨S512x640, .f32⟩ : BufTy).Contents (Elt Ideal)) (x5 : (⟨S512, .f32⟩ : BufTy).Contents (Elt Ideal))
    (x6 : (⟨S1024x1024, .f32⟩ : BufTy).Contents (Elt Ideal)) (x7 : (⟨S1024, .f32⟩ : BufTy).Contents (Elt Ideal)) :
    val_main_v19 (F := Ideal) x0 x1 x2 x3 x4 x5 x6 x7 = joint x0 x1 x2 x3 x4 x5 x6 x7 := by
  funext i
  obtain ⟨b, t, u, v, rfl⟩ : ∃ (b : Fin 8) (t : Fin 256) (u : Fin 64) (v : Fin 1024), i = ix4 b t u v :=
    ⟨i 0, i 1, i 2, i 3, eq_ix4 i⟩
  rw [reference_apply, joint_ix4, jointAt_eq_grouped]

end Cert.ReferenceIdeal.Joint

end
-- ==== Proof.lean ====
/-
  A transducer's joint network, computed by a tiled kernel, against its plain description.

  Both programs take the encoder output [8, 256, 512], the prediction output [8, 64, 640], two weight matrices with
  their biases, and the output layer's weights [1024, 1024] and bias, and produce [8, 256, 64, 1024]:

      out[b, t, u, v] = encOut[b, t, v] + predOut[b, u, v] + bOut[v],

  where encOut is the encoder output projected (x · Wᵀ + b) and then multiplied by the left half of the output
  weights' columns, and predOut the prediction output projected and multiplied by the right half.

  The kernel walks a grid of 8 batch elements by 8 tiles of 32 frames.  At the first tile of a batch element it computes
  predOut + bOut once and keeps it; at every tile it adds the kept array to the tile's encOut.  So it groups the sum as
  encOut + (predOut + bOut), where the plain description has (encOut + predOut) + bOut: the same extended real, because
  addition of extended reals is associative whatever is infinite.  The kernel's casts to a narrower float format are the
  identity on extended reals, and its matrix products into a zero accumulator are the plain sums of products.  No fact
  about the inputs being finite is used.

  The kernel program's own idealization rewrote nothing, so that conjunct is trivial; each program's run leaves its
  arguments as they were.
-/
import proofs.«169857_j12249246729035_2_alg».proof.Defs
import proofs.«169857_j12249246729035_2_alg».proof.Proof.Gen.Kernel
import proofs.«169857_j12249246729035_2_alg».proof.Proof.Gen.Kernel.Skeleton
import proofs.«169857_j12249246729035_2_alg».proof.Proof.Gen.Kernel.Launch
import proofs.«169857_j12249246729035_2_alg».proof.Proof.Gen.Kernel.Points
import proofs.«169857_j12249246729035_2_alg».proof.Proof.Gen.Kernel.Frame
import proofs.«169857_j12249246729035_2_alg».proof.Proof.Gen.KernelIdeal
import proofs.«169857_j12249246729035_2_alg».proof.Proof.Gen.KernelIdeal.Skeleton
import proofs.«169857_j12249246729035_2_alg».proof.Proof.Gen.KernelIdeal.Launch
import proofs.«169857_j12249246729035_2_alg».proof.Proof.Gen.KernelIdeal.Points
import proofs.«169857_j12249246729035_2_alg».proof.Proof.Gen.KernelIdeal.Frame
import proofs.«169857_j12249246729035_2_alg».proof.Proof.Gen.ReferenceIdeal
import proofs.«169857_j12249246729035_2_alg».proof.Proof.Gen.Pre_finite_inputs
import proofs.«169857_j12249246729035_2_alg».proof.Proof.Gen.KernelIdeal.Value
import proofs.«169857_j12249246729035_2_alg».proof.Proof.Gen.ReferenceIdeal.Run
import proofs.«169857_j12249246729035_2_alg».proof.Proof.Gen.ReferenceIdeal.Read
import proofs.«169857_j12249246729035_2_alg».proof.Proof.JoinerBlocks
import proofs.«169857_j12249246729035_2_alg».proof.Proof.JoinerReference
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- From memories agreeing on the arguments, the kernel's result array and the reference's both end at the joint
    network of the arguments: the kernel's by the induction over its grid, the reference's operation by operation. -/
theorem algebraic : Cert.algebraic_KernelIdeal_ReferenceIdeal := by
  intro m ρ m' ρ' _ hagree
  refine ⟨fun c => Cert.KernelIdeal.Joint.result m c, Cert.KernelIdeal.Joint.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Joint.reference_eq,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
